-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel

variable [Facts]

def fn {F : FTy → Type} [FloatOps F] (main_arg0 : FVec F S512x65536 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  main_v3
-- ==== Kernel.lean ====
abbrev S512x65536 : Shape := ⟨2, ![512, 65536]⟩
abbrev S1x65535 : Shape := ⟨2, ![1, 65535]⟩
abbrev S_ : Shape := ⟨0, ![]⟩
abbrev S512x1 : Shape := ⟨2, ![512, 1]⟩
abbrev S16x65536 : Shape := ⟨2, ![16, 65536]⟩
abbrev S16x1 : Shape := ⟨2, ![16, 1]⟩
abbrev S16 : Shape := ⟨1, ![16]⟩
abbrev S16x65280 : Shape := ⟨2, ![16, 65280]⟩
abbrev S16x65535 : Shape := ⟨2, ![16, 65535]⟩

abbrev nBuf : Space → Nat
  | .hbm => 29
  | .vmem => 5
  | .smem => 0
  | _ => 0

abbrev bufTy : (tb : Table) → Fin (tcTables nBuf tb) → BufTy
  | .hbm, ⟨0, _⟩ => ⟨S512x65536, .f32⟩
  | .hbm, ⟨1, _⟩ => ⟨S1x65535, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S_, .i32⟩
  | .hbm, ⟨7, _⟩ => ⟨S_, .i32⟩
  | .hbm, ⟨8, _⟩ => ⟨S1x65535, .i32⟩
  | .hbm, ⟨9, _⟩ => ⟨S1x65535, .i32⟩
  | .hbm, ⟨10, _⟩ => ⟨S_, .i32⟩
  | .hbm, ⟨11, _⟩ => ⟨S1x65535, .i32⟩
  | .hbm, ⟨12, _⟩ => ⟨S1x65535, .i1⟩
  | .hbm, ⟨13, _⟩ => ⟨S_, .i32⟩
  | .hbm, ⟨14, _⟩ => ⟨S1x65535, .i32⟩
  | .hbm, ⟨15, _⟩ => ⟨S1x65535, .i1⟩
  | .hbm, ⟨16, _⟩ => ⟨S_, .i32⟩
  | .hbm, ⟨17, _⟩ => ⟨S_, .i1⟩
  | .hbm, ⟨18, _⟩ => ⟨S1x65535, .i1⟩
  | .hbm, ⟨19, _⟩ => ⟨S1x65535, .i1⟩
  | .hbm, ⟨20, _⟩ => ⟨S1x65535, .i1⟩
  | .hbm, ⟨21, _⟩ => ⟨S1x65535, .i32⟩
  | .hbm, ⟨22, _⟩ => ⟨S1x65535, .i32⟩
  | .hbm, ⟨23, _⟩ => ⟨S1x65535, .i32⟩
  | .hbm, ⟨24, _⟩ => ⟨S_, .i32⟩
  | .hbm, ⟨25, _⟩ => ⟨S1x65535, .i32⟩
  | .hbm, ⟨26, _⟩ => ⟨S1x65535, .i1⟩
  | .hbm, ⟨27, _⟩ => ⟨S1x65535, .f32⟩
  | .hbm, ⟨28, _⟩ => ⟨S512x1, .f32⟩
  | .local _ .vmem, ⟨0, _⟩ => ⟨S16x65536, .f32⟩
  | .local _ .vmem, ⟨1, _⟩ => ⟨S16x65536, .f32⟩
  | .local _ .vmem, ⟨2, _⟩ => ⟨S1x65535, .f32⟩
  | .local _ .vmem, ⟨3, _⟩ => ⟨S16x1, .f32⟩
  | .local _ .vmem, ⟨4, _⟩ => ⟨S16x1, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_call0_c : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_v5 : Ref sig .tc := ⟨.hbm, 11, rfl⟩
abbrev main_call0_v6 : Ref sig .tc := ⟨.hbm, 12, rfl⟩
abbrev main_call0_c_2 : Ref sig .tc := ⟨.hbm, 13, rfl⟩
abbrev main_call0_v7 : Ref sig .tc := ⟨.hbm, 14, rfl⟩
abbrev main_call0_v8 : Ref sig .tc := ⟨.hbm, 15, rfl⟩
abbrev main_call0_c_3 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x65535 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S1x65535 : S_.BroadcastsInDim S1x65535 (![] : Fin 0 → Fin S1x65535.rank)
  inb_S16x65536_S16x65536_0_0 : ∀ a, (![0, 0] : Fin 2 → Nat) a + S16x65536.size a ≤ S16x65536.size a
  h_S16x65536 : 0 < S16x65536.numel
  reduces_S16x65536_S16 : S16x65536.Reduces [1] S16
  shapeCasts_S16_S16x1 : S16.ShapeCasts S16x1
  slices_S16x65536_o0_0_S16x65280 : S16x65536.Slices ![0, 0] S16x65280
  slices_S16x65536_o0_256_S16x65280 : S16x65536.Slices ![0, 256] S16x65280
  reduces_S16x65280_S16 : S16x65280.Reduces [1] S16
  slices_S16x65536_o0_0_S16x65535 : S16x65536.Slices ![0, 0] S16x65535
  slices_S16x65536_o0_1_S16x65535 : S16x65536.Slices ![0, 1] S16x65535
  inb_S1x65535_S1x65535_0_0 : ∀ a, (![0, 0] : Fin 2 → Nat) a + S1x65535.size a ≤ S1x65535.size a
  h_S1x65535 : 0 < S1x65535.numel
  shapeCasts_S1x65535_S1x65535 : S1x65535.ShapeCasts S1x65535
  broadcasts_S1x65535_S16x65535 : S1x65535.Broadcasts S16x65535
  reduces_S16x65535_S16 : S16x65535.Reduces [1] S16
  inb_S16x1_S16x1_0_0 : ∀ a, (![0, 0] : Fin 2 → Nat) a + S16x1.size a ≤ S16x1.size a
  h_S16x1 : 0 < S16x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x65536.size a ≤ S512x65536.size a
  hwx0_0 : ∀ i : grid0.Coords, EltTy.bits .f32 = 32 ∨ (Rect.block (s := S512x65536) S16x65536.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x65535.size a ≤ S1x65535.size a
  hwx0_1 : ∀ i : grid0.Coords, EltTy.bits .f32 = 32 ∨ (Rect.block (s := S1x65535) S1x65535.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S512x1.size a
  hwx0_2 : ∀ i : grid0.Coords, EltTy.bits .f32 = 32 ∨ (Rect.block (s := S512x1) S16x1.size (cc0_transform_2 i) (hinb0_2 i)).WholeWords (EltTy.packing .f32)

variable [Facts₀]

abbrev win0_0 : Pipeline.Window sig grid0 :=
  Pipeline.Window.ofSpec (Memref.whole main_arg0) S16x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x65535.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x65536 : Shape := ⟨2, ![512, 65536]⟩
abbrev S512x256x256 : Shape := ⟨3, ![512, 256, 256]⟩
abbrev S512x255x256 : Shape := ⟨3, ![512, 255, 256]⟩
abbrev S512x256x255 : Shape := ⟨3, ![512, 256, 255]⟩
abbrev S_ : Shape := ⟨0, ![]⟩
abbrev S512 : Shape := ⟨1, ![512]⟩
abbrev S512x1 : Shape := ⟨2, ![512, 1]⟩

abbrev nBuf : Space → Nat
  | .hbm => 22
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S512x256x256, .f32⟩
  | .hbm, ⟨2, _⟩ => ⟨S512x255x256, .f32⟩
  | .hbm, ⟨3, _⟩ => ⟨S512x255x256, .f32⟩
  | .hbm, ⟨4, _⟩ => ⟨S512x255x256, .f32⟩
  | .hbm, ⟨5, _⟩ => ⟨S512x255x256, .f32⟩
  | .hbm, ⟨6, _⟩ => ⟨S512x256x255, .f32⟩
  | .hbm, ⟨7, _⟩ => ⟨S512x256x255, .f32⟩
  | .hbm, ⟨8, _⟩ => ⟨S512x256x255, .f32⟩
  | .hbm, ⟨9, _⟩ => ⟨S512x256x255, .f32⟩
  | .hbm, ⟨10, _⟩ => ⟨S_, .f32⟩
  | .hbm, ⟨11, _⟩ => ⟨S512, .f32⟩
  | .hbm, ⟨12, _⟩ => ⟨S_, .f32⟩
  | .hbm, ⟨13, _⟩ => ⟨S512, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S_, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512x1, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  shapeCasts_S512x65536_S512x256x256 : S512x65536.ShapeCasts S512x256x256
  slices_S512x256x256_S512x255x256_0_0_0 : S512x256x256.Slices ![0, 0, 0] S512x255x256
  slices_S512x256x256_S512x255x256_0_1_0 : S512x256x256.Slices ![0, 1, 0] S512x255x256
  slices_S512x256x256_S512x256x255_0_0_0 : S512x256x256.Slices ![0, 0, 0] S512x256x255
  slices_S512x256x256_S512x256x255_0_0_1 : S512x256x256.Slices ![0, 0, 1] S512x256x255
  reducesTo_S512x255x256_S512_d1_2 : S512x255x256.ReducesTo [1, 2] S512
  h_S_ : 0 < S_.numel
  reducesTo_S512x256x255_S512_d1_2 : S512x256x255.ReducesTo [1, 2] S512
  reducesTo_S512x65536_S512_d1 : S512x65536.ReducesTo [1] S512
  bcast_S_S512 : S_.BroadcastsInDim S512 (![] : Fin 0 → Fin S512.rank)
  bcast_S512_S512x1_0 : S512.BroadcastsInDim S512x1 (![0] : Fin 1 → Fin S512x1.rank)

variable [Facts₀]

class Facts : Prop extends Facts₀ where

variable [Facts]
-- ==== Proof.Spec.lean ====
/-
  The value both programs compute, for one row of the argument, and the two rearrangements of sums that join the
  kernel's form of it to the reference's.

  A row of the argument is a 256 × 256 image stored row-major as 65536 numbers `f 0 … f 65535`. The result for the row is
  `area f - κ * (V + H)`: `area f` the sum of the row, `V` the sum of `|f k - f (k + 256)|` over vertically adjacent pixels,
  `H` the sum of `|f k - f (k + 1)|` over horizontally adjacent pixels. The kernel takes both neighbour sums over the flat
  row — `V` over `k < 65280`, `H` over `k < 65535` with each term multiplied by a mask that is `0` where `k` is the last
  column of an image row (`k % 256 = 255`) and `1` elsewhere. The reference takes them over the image's coordinates,
  `V` over `r < 255, c < 256` and `H` over `r < 256, c < 255`, with `k = r * 256 + c`. The two agree on the extended reals
  with no finiteness assumed: the flat index runs through the pairs `(r, c)` row by row (`sum_range_mul`), and a masked-out
  term is a product with `0`, which is `0` for every extended real, while a kept term is a product with `1`.
-/
import Idealize.ShloMosaic.PureOps.Ideal
import Idealize.ShloMosaic.Lib.ValueIdx

noncomputable section

namespace Cert.Spec

open Idealize.ShloMosaic Idealize.ShloMosaic.ValueIdx Finset

/-! ## Sums over an initial segment of the naturals -/

/-- A sum over `k < R * C` is the sum over `r < R` of the sums over `c < C` at `k = r * C + c`. -/
theorem sum_range_mul {M : Type*} [AddCommMonoid M] (g : ℕ → M) (R C : ℕ) :
    ∑ k ∈ range (R * C), g k = ∑ r ∈ range R, ∑ c ∈ range C, g (r * C + c) := by
  induction R with
  | zero => simp
  | succ R ih => rw [Nat.succ_mul, sum_range_add, ih, sum_range_succ]

/-- The mask of the horizontal differences: `0` at the last column of an image row, `1` elsewhere. -/
def wrapMask (n : ℕ) : EReal := if n % 256 = 255 then 0 else 1

/-- The masked sum over the flat positions `k < 65535` is the sum over the rows `r < 256` and the columns `c < 255` that
    have a right neighbour. -/
theorem sum_range_wrapMask (g : ℕ → EReal) :
    ∑ k ∈ range 65535, g k * wrapMask k = ∑ r ∈ range 256, ∑ c ∈ range 255, g (r * 256 + c) := by
  have h1 : ∑ k ∈ range 65536, g k * wrapMask k = ∑ k ∈ range 65535, g k * wrapMask k := by
    refine (sum_range_succ (fun k => g k * wrapMask k) 65535).trans ?_
    have h0 : wrapMask 65535 = 0 := by unfold wrapMask; rw [if_pos (by omega)]
    rw [h0, mul_zero, add_zero]
  rw [← h1]
  refine (sum_range_mul (fun k => g k * wrapMask k) 256 256).trans ?_
  refine sum_congr rfl fun r _ => ?_
  refine (sum_range_succ (fun c => g (r * 256 + c) * wrapMask (r * 256 + c)) 255).trans ?_
  have hlast : wrapMask (r * 256 + 255) = 0 := by unfold wrapMask; rw [if_pos (by omega)]
  rw [hlast, mul_zero, add_zero]
  refine sum_congr rfl fun c hc => ?_
  have hc' : c < 255 := mem_range.mp hc
  have h1' : wrapMask (r * 256 + c) = 1 := by unfold wrapMask; rw [if_neg (by omega)]
  rw [h1', mul_one]

/-! ## One row -/

/-- A row extended by zero past its end, so that its sums can be taken over the naturals. -/
def ext (f : Fin 65536 → EReal) (n : ℕ) : EReal := if h : n < 65536 then f ⟨n, h⟩ else 0

theorem ext_mk (f : Fin 65536 → EReal) (n : ℕ) (h : n < 65536) : f ⟨n, h⟩ = ext f n := by
  unfold ext; rw [dif_pos h]

/-- The absolute value on the extended reals as both programs take it. -/
def absE (x : EReal) : EReal := max x (-x)

/-- The sum of a row. -/
def area (f : Fin 65536 → EReal) : EReal := ∑ k : Fin 65536, f k

/-- The vertical neighbour differences over the flat row: position `k` against position `256 + k`. -/
def vflat (f : Fin 65536 → EReal) : EReal :=
  ∑ k : Fin 65280, absE (f ⟨k.val, by have := k.isLt; omega⟩ - f ⟨256 + k.val, by have := k.isLt; omega⟩)

/-- The horizontal neighbour differences over the flat row, each weighted by `μ`: position `k` against position `1 + k`. -/
def hflat (f : Fin 65536 → EReal) (μ : Fin 65535 → EReal) : EReal :=
  ∑ k : Fin 65535, absE (f ⟨k.val, by have := k.isLt; omega⟩ - f ⟨1 + k.val, by have := k.isLt; omega⟩) * μ k

/-- The vertical neighbour differences over the image: pixel `(r, c)` against pixel `(1 + r, c)`. -/
def vgrid (f : Fin 65536 → EReal) : EReal :=
  ∑ r : Fin 255, ∑ c : Fin 256, absE (f ⟨r.val * 256 + c.val, by have := r.isLt; have := c.isLt; omega⟩
    - f ⟨(1 + r.val) * 256 + c.val, by have := r.isLt; have := c.isLt; omega⟩)

/-- The horizontal neighbour differences over the image: pixel `(r, c)` against pixel `(r, 1 + c)`. -/
def hgrid (f : Fin 65536 → EReal) : EReal :=
  ∑ r : Fin 256, ∑ c : Fin 255, absE (f ⟨r.val * 256 + c.val, by have := r.isLt; have := c.isLt; omega⟩
    - f ⟨r.val * 256 + (1 + c.val), by have := r.isLt; have := c.isLt; omega⟩)

/-- Vertically adjacent pixels are the flat positions 256 apart. -/
theorem vflat_eq_vgrid (f : Fin 65536 → EReal) : vflat f = vgrid f := by
  unfold vflat vgrid
  calc ∑ k : Fin 65280, absE (f ⟨k.val, _⟩ - f ⟨256 + k.val, _⟩)
      = ∑ k : Fin 65280, (fun n => absE (ext f n - ext f (256 + n))) k.val :=
        sum_congr rfl fun k _ => by simp only [ext_mk f]
    _ = ∑ n ∈ range 65280, absE (ext f n - ext f (256 + n)) :=
        Fin.sum_univ_eq_sum_range (fun n => absE (ext f n - ext f (256 + n))) 65280
    _ = ∑ r ∈ range 255, ∑ c ∈ range 256, absE (ext f (r * 256 + c) - ext f (256 + (r * 256 + c))) :=
        sum_range_mul (fun n => absE (ext f n - ext f (256 + n))) 255 256
    _ = ∑ r : Fin 255, (fun r => ∑ c ∈ range 256, absE (ext f (r * 256 + c) - ext f (256 + (r * 256 + c)))) r.val :=
        (Fin.sum_univ_eq_sum_range _ _).symm
    _ = _ := sum_congr rfl fun r _ => by
        refine (Fin.sum_univ_eq_sum_range (fun c => absE (ext f (r.val * 256 + c) - ext f (256 + (r.val * 256 + c)))) 256).symm.trans ?_
        refine sum_congr rfl fun c _ => ?_
        have e : 256 + (r.val * 256 + c.val) = (1 + r.val) * 256 + c.val := by omega
        simp only [ext_mk f, e]

/-- Horizontally adjacent pixels are the consecutive flat positions that do not straddle two image rows. -/
theorem hflat_wrapMask_eq_hgrid (f : Fin 65536 → EReal) : hflat f (fun k => wrapMask k.val) = hgrid f := by
  unfold hflat hgrid
  calc ∑ k : Fin 65535, absE (f ⟨k.val, _⟩ - f ⟨1 + k.val, _⟩) * wrapMask k.val
      = ∑ k : Fin 65535, (fun n => absE (ext f n - ext f (1 + n)) * wrapMask n) k.val :=
        sum_congr rfl fun k _ => by simp only [ext_mk f]
    _ = ∑ n ∈ range 65535, absE (ext f n - ext f (1 + n)) * wrapMask n :=
        Fin.sum_univ_eq_sum_range (fun n => absE (ext f n - ext f (1 + n)) * wrapMask n) 65535
    _ = ∑ r ∈ range 256, ∑ c ∈ range 255, absE (ext f (r * 256 + c) - ext f (1 + (r * 256 + c))) :=
        sum_range_wrapMask (fun n => absE (ext f n - ext f (1 + n)))
    _ = ∑ r : Fin 256, (fun r => ∑ c ∈ range 255, absE (ext f (r * 256 + c) - ext f (1 + (r * 256 + c)))) r.val :=
        (Fin.sum_univ_eq_sum_range _ _).symm
    _ = _ := sum_congr rfl fun r _ => by
        refine (Fin.sum_univ_eq_sum_range (fun c => absE (ext f (r.val * 256 + c) - ext f (1 + (r.val * 256 + c)))) 255).symm.trans ?_
        refine sum_congr rfl fun c _ => ?_
        have e : 1 + (r.val * 256 + c.val) = r.val * 256 + (1 + c.val) := by omega
        simp only [ext_mk f, e]

/-- The kernel's form of a row's result: the flat neighbour sums, the horizontal one weighted by `μ`. -/
def rowFlat (κ : EReal) (f : Fin 65536 → EReal) (μ : Fin 65535 → EReal) : EReal :=
  area f - κ * (vflat f + hflat f μ)

/-- The reference's form of a row's result: the neighbour sums over the image. -/
def rowGrid (κ : EReal) (f : Fin 65536 → EReal) : EReal :=
  area f - κ * (vgrid f + hgrid f)

theorem rowFlat_wrapMask (κ : EReal) (f : Fin 65536 → EReal) :
    rowFlat κ f (fun k => wrapMask k.val) = rowGrid κ f := by
  unfold rowFlat rowGrid
  rw [vflat_eq_vgrid, hflat_wrapMask_eq_hgrid]

/-! ## The whole array -/

/-- Row `b` of a [512, 65536] array. -/
def rowOf (Y : (⟨2, ![512, 65536]⟩ : Shape).Idx → EReal) (b : Fin 512) : Fin 65536 → EReal := fun k => Y (ix2 b k)

/-- The [512, 1] result in the kernel's form, for any weights `μ` of the horizontal differences. -/
def resultFlat (κ : EReal) (Y : (⟨2, ![512, 65536]⟩ : Shape).Idx → EReal) (μ : Fin 65535 → EReal) :
    (⟨2, ![512, 1]⟩ : Shape).Idx → EReal :=
  fun i => rowFlat κ (rowOf Y ⟨(i 0).val, idx2_lt0 i⟩) μ

/-- The [512, 1] result in the reference's form. -/
def resultGrid (κ : EReal) (Y : (⟨2, ![512, 65536]⟩ : Shape).Idx → EReal) : (⟨2, ![512, 1]⟩ : Shape).Idx → EReal :=
  fun i => rowGrid κ (rowOf Y ⟨(i 0).val, idx2_lt0 i⟩)

theorem resultFlat_wrapMask (κ : EReal) (Y : (⟨2, ![512, 65536]⟩ : Shape).Idx → EReal) :
    resultFlat κ Y (fun k => wrapMask k.val) = resultGrid κ Y :=
  funext fun _ => rowFlat_wrapMask κ _

end Cert.Spec

end
-- ==== Proof.KernelRow.lean ====
/-
  What one grid point's body leaves in its [16, 1] output block, read at a row: for row `p` of the point's [16, 65536] input
  block `P0` and the staged weights `P1`, the row's sum less `κ` times the two flat neighbour sums — `Spec.rowFlat` of that
  row.

  The generated value leg gives the block as one function `E2` of the body's two loads: three lane sums, each over one
  row. A lane sum over the second axis of a [16, n] value is, at row `p`, the sum over `k < n` of the value at `(p, k)`
  (`rowSum`). The summed values are pointwise: a slice of the block at column offset `o` read at `(p, k)` is the block at
  `(p, o + k)`, and the weights broadcast along the rows read at `(p, k)` are the weights at `(0, k)`.
-/
import proofs.«145471_j5531917877519_2_alg».proof.Proof.Gen.KernelIdeal.Value
import proofs.«145471_j5531917877519_2_alg».proof.Proof.Spec
import Idealize.ShloMosaic.Lib.Pipeline.Value
import Idealize.ShloMosaic.Lib.ValueIdx
import Idealize.ShloMosaic.PureOps.Ideal.Laws

noncomputable section

namespace Cert.KernelRow

open Cert.KernelIdeal Cert.KernelIdeal.Gen Idealize.ShloMosaic Idealize.ShloMosaic.ValueIdx
open Cert.Spec

/-- The weight of the neighbour sums: the binary32 number nearest one tenth, the same word in both programs. -/
abbrev κ : EReal := Ideal.ofBits .f32 0x3DCCCCCD#32

/-- A lane sum over the second axis of a [16, n] value, at row `p`: the sum of that row. -/
theorem rowSum (n : ℕ) (src : FVec Ideal (⟨2, ![16, n]⟩ : Shape) .f32)
    (h : (⟨2, ![16, n]⟩ : Shape).Reduces [1] (⟨1, ![16]⟩ : Shape)) (hφ : FKind.Formats .f32)
    (hacc : (0x00000000#32 : BitVec 32) = FKind.add.neutral .f32 hφ) (p : Fin 16) :
    multiReduction (F := Ideal) .add [1] (⟨1, ![16]⟩ : Shape) src 0x00000000#32 h hφ hacc (ix1 p) = ∑ k : Fin n, src (ix2 p k) := by
  refine (Ideal.multiReduction_add_single src _ h hφ hacc (ix1 p)).trans ?_
  refine Finset.sum_congr rfl fun k _ => congrArg src (funext fun a => Fin.ext ?_)
  match a with
  | ⟨0, _⟩ => rfl
  | ⟨1, _⟩ => rfl

/-- The block index under a row of the output block names that row in each of the three lane sums. -/
theorem row_ix (p : Fin 16) (q : Fin 1) :
    Value.ix2_0 (ix2 p q) = ix1 p ∧ Value.ix2_1 (ix2 p q) = ix1 p ∧ Value.ix2_2 (ix2 p q) = ix1 p :=
  ⟨funext fun a => by match a with | ⟨0, _⟩ => rfl, funext fun a => by match a with | ⟨0, _⟩ => rfl,
    funext fun a => by match a with | ⟨0, _⟩ => rfl⟩

/-- The body's result at row `p` of its output block. -/
theorem block_row (P0 : Vec Ideal S16x65536 .f32) (P1 : Vec Ideal S1x65535 .f32) (p : Fin 16) (q : Fin 1) :
    Value.E2 (F := Ideal) P0 P1 (ix2 p q) = rowFlat κ (fun k => P0 (ix2 p k)) (fun k => P1 (ix2 0 k)) := by
  obtain ⟨x0, x1, x2⟩ := row_ix p q
  have e1 : multiReduction (F := Ideal) .add [1] S16 P0 0x00000000#32 reduces_S16x65536_S16 (.inl rfl) rfl (Value.ix2_0 (ix2 p q))
      = area (fun k => P0 (ix2 p k)) := by
    rw [x0]
    exact rowSum 65536 P0 _ _ _ p
  have e2 : multiReduction (F := Ideal) .add [1] S16 (absf (F := Ideal) (subf (F := Ideal) (extractStridedSlice S16x65280 ![0, 0] P0 slices_S16x65536_o0_0_S16x65280)
        (extractStridedSlice S16x65280 ![0, 256] P0 slices_S16x65536_o0_256_S16x65280))) 0x00000000#32 reduces_S16x65280_S16 (.inl rfl) rfl
        (Value.ix2_1 (ix2 p q))
      = vflat (fun k => P0 (ix2 p k)) := by
    rw [x1]
    refine (rowSum 65280 _ _ _ _ p).trans ?_
    unfold vflat
    refine Finset.sum_congr rfl fun k _ => ?_
    have hk : k.val < 65280 := k.isLt
    have ea : extractStridedSlice S16x65280 ![0, 0] P0 slices_S16x65536_o0_0_S16x65280 (ix2 p k)
        = P0 (ix2 p ⟨k.val, by omega⟩) :=
      extractStridedSlice_apply _ _ _ _ _ fun a => match a with
        | ⟨0, _⟩ => by show p.val = 0 + p.val; omega
        | ⟨1, _⟩ => by show k.val = 0 + k.val; omega
    have eb : extractStridedSlice S16x65280 ![0, 256] P0 slices_S16x65536_o0_256_S16x65280 (ix2 p k)
        = P0 (ix2 p ⟨256 + k.val, by omega⟩) :=
      extractStridedSlice_apply _ _ _ _ _ fun a => match a with
        | ⟨0, _⟩ => by show p.val = 0 + p.val; omega
        | ⟨1, _⟩ => by show 256 + k.val = 256 + k.val; rfl
    show max (extractStridedSlice S16x65280 ![0, 0] P0 slices_S16x65536_o0_0_S16x65280 (ix2 p k)
          - extractStridedSlice S16x65280 ![0, 256] P0 slices_S16x65536_o0_256_S16x65280 (ix2 p k))
        (-(extractStridedSlice S16x65280 ![0, 0] P0 slices_S16x65536_o0_0_S16x65280 (ix2 p k)
          - extractStridedSlice S16x65280 ![0, 256] P0 slices_S16x65536_o0_256_S16x65280 (ix2 p k))) = _
    rw [ea, eb]
    rfl
  have e3 : multiReduction (F := Ideal) .add [1] S16 (mulf (F := Ideal) (absf (F := Ideal) (subf (F := Ideal) (extractStridedSlice S16x65535 ![0, 0] P0 slices_S16x65536_o0_0_S16x65535)
        (extractStridedSlice S16x65535 ![0, 1] P0 slices_S16x65536_o0_1_S16x65535)))
        (broadcastTo S16x65535 (shapeCast S1x65535 P1 shapeCasts_S1x65535_S1x65535) broadcasts_S1x65535_S16x65535))
        0x00000000#32 reduces_S16x65535_S16 (.inl rfl) rfl (Value.ix2_2 (ix2 p q))
      = hflat (fun k => P0 (ix2 p k)) (fun k => P1 (ix2 0 k)) := by
    rw [x2]
    refine (rowSum 65535 _ _ _ _ p).trans ?_
    unfold hflat
    refine Finset.sum_congr rfl fun k _ => ?_
    have hk : k.val < 65535 := k.isLt
    have ea : extractStridedSlice S16x65535 ![0, 0] P0 slices_S16x65536_o0_0_S16x65535 (ix2 p k)
        = P0 (ix2 p ⟨k.val, by omega⟩) :=
      extractStridedSlice_apply _ _ _ _ _ fun a => match a with
        | ⟨0, _⟩ => by show p.val = 0 + p.val; omega
        | ⟨1, _⟩ => by show k.val = 0 + k.val; omega
    have eb : extractStridedSlice S16x65535 ![0, 1] P0 slices_S16x65536_o0_1_S16x65535 (ix2 p k)
        = P0 (ix2 p ⟨1 + k.val, by omega⟩) :=
      extractStridedSlice_apply _ _ _ _ _ fun a => match a with
        | ⟨0, _⟩ => by show p.val = 0 + p.val; omega
        | ⟨1, _⟩ => by show 1 + k.val = 1 + k.val; rfl
    have ec : broadcastTo S16x65535 (shapeCast S1x65535 P1 shapeCasts_S1x65535_S1x65535) broadcasts_S1x65535_S16x65535 (ix2 p k)
        = P1 (ix2 0 k) := by
      rw [shapeCast_self]
      exact broadcastTo_apply _ _ _ _ fun a => match a with
        | ⟨0, _⟩ => rfl
        | ⟨1, _⟩ => rfl
    show max (extractStridedSlice S16x65535 ![0, 0] P0 slices_S16x65536_o0_0_S16x65535 (ix2 p k)
          - extractStridedSlice S16x65535 ![0, 1] P0 slices_S16x65536_o0_1_S16x65535 (ix2 p k))
        (-(extractStridedSlice S16x65535 ![0, 0] P0 slices_S16x65536_o0_0_S16x65535 (ix2 p k)
          - extractStridedSlice S16x65535 ![0, 1] P0 slices_S16x65536_o0_1_S16x65535 (ix2 p k)))
        * broadcastTo S16x65535 (shapeCast S1x65535 P1 shapeCasts_S1x65535_S1x65535) broadcasts_S1x65535_S16x65535 (ix2 p k) = _
    rw [ea, eb, ec]
    rfl
  unfold rowFlat
  rw [← e1, ← e2, ← e3]
  rfl

end Cert.KernelRow

end
-- ==== Proof.Mask.lean ====
/-
  The weights of the horizontal differences, as the kernel's program computes them on the host before the launch: the
  [1, 65535] array whose entry at flat position `k` is `0` when `k` is the last column of an image row (`k % 256 = 255`)
  and `1` otherwise — `Spec.wrapMask`.

  The program builds it from the positions `0 … 65534`, their floored remainder by 256, a comparison with 255 and a
  conversion of the resulting bit to a float. The floored remainder is the machine's signed remainder corrected to the sign of
  the divisor: where the remainder is not zero and its sign differs from the divisor's, the divisor is added. For a position,
  which is not negative, and the divisor 256 the machine's remainder is already `k % 256`, not negative, so the correction
  never applies (`remainder_ne_255`). The bit `1` converts to the real `1` and the bit `0` to `0` (`uitofp_bit`).
-/
import proofs.«145471_j5531917877519_2_alg».proof.Proof.Gen.KernelIdeal.Frame
import proofs.«145471_j5531917877519_2_alg».proof.Proof.Spec
import Idealize.ShloMosaic.Lib.StableHlo.Run
import Idealize.ShloMosaic.Lib.Affine
import Idealize.ShloMosaic.Lib.ValueIdx

noncomputable section

namespace Cert.Mask

open Cert.KernelIdeal Cert.KernelIdeal.Gen Idealize.ShloMosaic Idealize.ShloMosaic.TcCoe Idealize.SL.Sem
open Idealize.ShloMosaic.StableHlo Idealize.ShloMosaic.ValueIdx

/-- The divisor as the program spells it: a zero divisor would be replaced by one, and 256 is not zero. -/
theorem divisor_eq : Scalar.select (IntOp.cmpi .eq (256#32 : BitVec 32) 0#32) (1#32 : BitVec 32) 256#32 = 256#32 := by decide

/-- The floored remainder by 256 of a word that is not negative, compared with 255: the comparison's bit is `0` exactly when the
    word is `255` modulo `256`. -/
theorem remainder_ne_255 (x : BitVec 32) (hx : 2 * x.toNat < 2 ^ 32) :
    IntOp.cmpi .ne
      (Scalar.select
        (IntOp.andi (IntOp.cmpi .ne (IntOp.cmpi .slt (IntOp.remsi .host x 256#32) 0#32) (IntOp.cmpi .slt (256#32 : BitVec 32) 0#32))
          (IntOp.cmpi .ne (IntOp.remsi .host x 256#32) 0#32))
        (IntOp.addi (IntOp.remsi .host x 256#32) 256#32) (IntOp.remsi .host x 256#32))
      255#32
    = if x.toNat % 256 = 255 then 0#1 else 1#1 := by
  have hR : (IntOp.remsi .host x 256#32).toNat = x.toNat % 256 := IntOp.toNat_remsi .host hx 256 (by omega) (by omega)
  generalize IntOp.remsi .host x 256#32 = R at hR ⊢
  have hlt : R.toNat < 256 := by rw [hR]; omega
  have h1 : IntOp.cmpi .slt R 0#32 = 0#1 := by
    refine eq_zero_of_ne_one fun h => ?_
    rw [IntOp.cmpi_slt, BitVec.toInt_eq_toNat_of_lt (by omega)] at h
    have : (0#32 : BitVec 32).toInt = 0 := by decide
    omega
  have h2 : IntOp.cmpi .slt (256#32 : BitVec 32) 0#32 = 0#1 := by decide
  have h3 : ∀ b : BitVec 1, IntOp.andi (IntOp.cmpi .ne (0#1 : BitVec 1) 0#1) b = 0#1 := by decide
  rw [h1, h2, h3, select_zero]
  by_cases h : x.toNat % 256 = 255
  · have e : R = 255#32 := BitVec.eq_of_toNat_eq (by rw [hR, h]; rfl)
    rw [e, if_pos h]; decide
  · have hne : R ≠ 255#32 := fun e => h (by rw [← hR, e]; rfl)
    rw [if_neg h]; exact IntOp.cmpi_ne.mpr hne

/-- A bit converted to a float, on the extended reals: `1` for the set bit, `0` for the clear one. -/
theorem uitofp_bit (b : BitVec 1) : (FloatOps.uitofp (F := Ideal) .f32 b : EReal) = if b = 1#1 then 1 else 0 := by
  rcases BitVec.eq_zero_or_eq_one b with h | h <;> subst h
  · show (((0#1 : BitVec 1).toNat : ℝ) : EReal) = _
    simp
  · show (((1#1 : BitVec 1).toNat : ℝ) : EReal) = _
    simp

variable (m : (ℓ : Loc nD τ sig) → Buf (Elt Ideal) ℓ)

set_option maxHeartbeats 2000000 in
/-- The array the second window stages, as the region finds it, is the mask of the last columns. -/
theorem mask_eq (c : Dev nD) : (V m c main_v4 : S1x65535.Idx → EReal) = fun i => Spec.wrapMask (i 1).val := by
  dsimp only [V]
  simp only [hostOps0, hostOps0_1, hostOps0_2, List.flatten_cons, List.flatten_nil, List.append_nil, List.cons_append, List.nil_append]
  after_results_simp
  funext i
  have hi : (i 1).val < 65535 := idx2_lt1 i
  show FloatOps.uitofp (F := Ideal) .f32
      (IntOp.cmpi .ne
        (Scalar.select
          (IntOp.andi
            (IntOp.cmpi .ne
              (IntOp.cmpi .slt (IntOp.remsi .host (BitVec.ofNat 32 (i 1).val)
                (Scalar.select (IntOp.cmpi .eq (256#32 : BitVec 32) 0#32) (1#32 : BitVec 32) 256#32)) 0#32)
              (IntOp.cmpi .slt (Scalar.select (IntOp.cmpi .eq (256#32 : BitVec 32) 0#32) (1#32 : BitVec 32) 256#32) 0#32))
            (IntOp.cmpi .ne (IntOp.remsi .host (BitVec.ofNat 32 (i 1).val)
              (Scalar.select (IntOp.cmpi .eq (256#32 : BitVec 32) 0#32) (1#32 : BitVec 32) 256#32)) 0#32))
          (IntOp.addi (IntOp.remsi .host (BitVec.ofNat 32 (i 1).val)
              (Scalar.select (IntOp.cmpi .eq (256#32 : BitVec 32) 0#32) (1#32 : BitVec 32) 256#32))
            (Scalar.select (IntOp.cmpi .eq (256#32 : BitVec 32) 0#32) (1#32 : BitVec 32) 256#32))
          (IntOp.remsi .host (BitVec.ofNat 32 (i 1).val)
            (Scalar.select (IntOp.cmpi .eq (256#32 : BitVec 32) 0#32) (1#32 : BitVec 32) 256#32)))
        255#32) = Spec.wrapMask (i 1).val
  have hn : (BitVec.ofNat 32 (i 1).val).toNat = (i 1).val := by rw [BitVec.toNat_ofNat]; omega
  rw [divisor_eq, remainder_ne_255 _ (by rw [hn]; omega), uitofp_bit, hn]
  unfold Spec.wrapMask
  by_cases h : (i 1).val % 256 = 255
  · rw [if_pos h, if_pos h, if_neg (by decide)]
  · rw [if_neg h, if_neg h, if_pos rfl]

end Cert.Mask

end
-- ==== Proof.KernelValue.lean ====
/-
  From the grid points' blocks to the whole [512, 1] result of the kernel's run: row `b` of the result is `Spec.rowFlat` of
  row `b` of the argument with the mask of the last columns as weights, that is (`Spec.resultFlat_wrapMask`) the
  reference's form `Spec.resultGrid`.

  Grid point `t` of 32 stages rows `16 t … 16 t + 15` of the argument (all 65536 columns), the whole [1, 65535] array of
  weights, and writes back rows `16 t … 16 t + 15` of the result. So row `p` of the point's input block is row `16 t + p` of the
  argument (`rows_block`), the staged weights are the host's mask at every point (`weights_block`), and the block the
  point writes back is the block of the one whole-array function (`flushed_eq`). The 32 blocks cover the result: row `b`
  lies in the block of point `b / 16` (`cover`).
-/
import proofs.«145471_j5531917877519_2_alg».proof.Proof.Gen.KernelIdeal.Value
import proofs.«145471_j5531917877519_2_alg».proof.Proof.KernelRow
import proofs.«145471_j5531917877519_2_alg».proof.Proof.Mask
import Idealize.ShloMosaic.Lib.Pipeline.Value

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.Spec Cert.KernelRow

variable (m : (ℓ : Loc nD τ sig) → Buf (Elt Ideal) ℓ) (ρ : Dev nD → PrngReg)

theorem hz : (![0, 0] : Fin 2 → Nat) = fun _ => 0 := funext fun a => by fin_cases a <;> rfl

/-- The block index of each window at grid point `t`: the argument's and the result's blocks move down the rows with
    the point, the weights' block is the whole array at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 32 := by
  have h := t.isLt
  have hN : cfg0.N = 32 := N_0
  omega

/-- Row `p` of the argument's block at point `t` is row `16 t + p` of the argument as launched. -/
theorem rows_block (c : Dev nD) (t : Fin cfg0.N) (p : Fin 16) (k : Fin 65536) :
    (iblk m c 0 t : Vec Ideal S16x65536 .f32) (ix2 p k)
      = (m ((c : Thread nD τ).loc main_arg0) : S512x65536.Idx → EReal)
          (ix2 (⟨16 * t.val + p.val, by have := point_lt t; have := p.isLt; omega⟩ : Fin 512) k) := by
  obtain ⟨i00, i01, -, -, -, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 16 + 1 * p.val = 16 * t.val + p.val; rw [i00]; omega
  | ⟨1, _⟩ => show win0_0.index t 1 * 65536 + 1 * k.val = k.val; rw [i01]; omega

/-- The weights' block at any point is the host's array of weights: the mask of the last columns. -/
theorem weights_block (c : Dev nD) (t : Fin cfg0.N) (k : Fin 65535) :
    (iblk m c 1 t : Vec Ideal S1x65535 .f32) (ix2 0 k) = wrapMask k.val := by
  obtain ⟨-, -, i10, i11, -, -⟩ := idx_facts t
  refine Eq.trans ?_ (congrFun (Cert.Mask.mask_eq m c) (ix2 0 k))
  unfold iblk
  rw [View.read_apply]
  show V m c main_v4 _ = V m c main_v4 _
  refine congrArg _ (funext fun a => Fin.ext ?_)
  match a with
  | ⟨0, _⟩ => show win0_1.index t 0 * 1 + 1 * 0 = 0; rw [i10]
  | ⟨1, _⟩ => show win0_1.index t 1 * 65535 + 1 * k.val = k.val; rw [i11]; omega

/-- What point `t` writes back is its block of the whole-array result. -/
theorem flushed_eq (c : Dev nD) (t : Fin cfg0.N) :
    (dats m 0 c).flushed 2 t = ((cfg0.win 2).blk t).view.read (Elt Ideal)
      (resultFlat κ (m ((c : Thread nD τ).loc main_arg0)) (fun k => wrapMask k.val)) := by
  obtain ⟨-, -, -, -, i20, i21⟩ := idx_facts t
  rw [Value.flushed2]
  unfold out0_2
  simp only [View.ld_unit_zero (S := S16x65536) hz, View.ld_unit_zero (S := S1x65535) hz]
  funext y
  obtain ⟨p, q, rfl⟩ : ∃ (p : Fin 16) (q : Fin 1), y = ix2 p q := ⟨y 0, y 1, eq_ix2 y⟩
  show View.canon [(⟨r0_2, k0_pay1 (F := Ideal) (iblk m c 0 t) (iblk m c 1 t)⟩ : View.Piece (Elt Ideal) S16x1 .f32)] (ix2 p q)
    = resultFlat κ (m ((c : Thread nD τ).loc main_arg0)) (fun k => wrapMask k.val) (((cfg0.win 2).blk t).view.emb (ix2 p q))
  refine (Value.canon2_eq (F := Ideal) (iblk m c 0 t) (iblk m c 1 t) (ix2 p q)).trans ?_
  refine (block_row (iblk m c 0 t) (iblk m c 1 t) p q).trans ?_
  unfold resultFlat
  refine congrArg₂ (rowFlat κ) (funext fun k => ?_) (funext fun k => ?_)
  · unfold rowOf
    refine (rows_block m c t p k).trans (congrArg _ (funext fun a => ?_))
    match a with
    | ⟨0, _⟩ =>
      refine Fin.ext ?_
      show 16 * t.val + p.val = win0_2.index t 0 * 16 + 1 * p.val
      rw [i20]; omega
    | ⟨1, _⟩ => rfl
  · exact weights_block m c t k

/-- Every row of the result lies in some point's block. -/
theorem cover (i : S512x1.Idx) :
    ∃ t : Fin cfg0.N, (cfg0.win 2).flush t = true ∧ i ∈ ((cfg0.win 2).blk t).view.set := by
  have hi0 : (i 0).val < 512 := idx2_lt0 i
  have hi1 : (i 1).val < 1 := idx2_lt1 i
  obtain ⟨t, ht⟩ : ∃ t : Fin cfg0.N, t.val = (i 0).val / 16 :=
    ⟨⟨(i 0).val / 16, by rw [show cfg0.N = 32 from N_0]; omega⟩, rfl⟩
  obtain ⟨-, -, -, -, i20, i21⟩ := idx_facts t
  refine ⟨t, flush0_2 t, ?_⟩
  show i ∈ ((View.whole main_v5).slice (win0_2.rect t)).set
  rw [View.set_slice_whole, Rect.mem_set_unit]
  intro a
  match a with
  | ⟨0, _⟩ =>
    show win0_2.index t 0 * 16 ≤ (i 0).val ∧ (i 0).val < win0_2.index t 0 * 16 + 16
    rw [i20, ht]; omega
  | ⟨1, _⟩ =>
    show win0_2.index t 1 * 1 ≤ (i 1).val ∧ (i 1).val < win0_2.index t 1 * 1 + 1
    rw [i21]; omega

/-- The result array after the run, in the kernel's form. -/
theorem final (c : Dev nD) :
    (dats m 0 c).arrAt 2 cfg0.N = resultFlat κ (m ((c : Thread nD τ).loc main_arg0)) (fun k => wrapMask k.val) :=
  (dats m 0 c).arrAt_eq_of_cover 2 _ (fun t _ => flushed_eq m c t) cover

/-- The kernel's run: the result array ends at the reference's form of the result, the argument unchanged. -/
theorem run : θ_run defs (onTc (τ := τ) (main (F := Ideal))) ⟨m, fun _ => 0, ρ⟩ fun r => ∀ c : Dev nD,
      r.2.mem ((c : Thread nD τ).loc main_v5) = resultGrid κ (m ((c : Thread nD τ).loc main_arg0))
      ∧ r.2.mem ((c : Thread nD τ).loc main_arg0) = m ((c : Thread nD τ).loc main_arg0) :=
  (θ_run defs _ _).mono (fun r h c => ⟨(h c).1.trans ((final m c).trans (resultFlat_wrapMask κ _)), (h c).2⟩)
    (Value.run_blocks m ρ)

end Cert.KernelValue

end
-- ==== Proof.RefValue.lean ====
/-
  The reference's result, read index by index: for row `b` it is the row's sum less `κ` times the two neighbour sums taken
  over the image's coordinates — the function `Spec.resultGrid`.

  The reference reshapes the [512, 65536] argument to [512, 256, 256] images, so pixel `(r, c)` of image `b` is the
  argument at `(b, r * 256 + c)`; its slices pair pixel `(r, c)` with `(1 + r, c)` and with `(r, 1 + c)`; and each of its two
  sums over both image axes is, at row `b`, the sum over all pixels `(r, c)` of image `b` (`hostReduceAdd_image`: the
  indices that drop to `b` are exactly the triples `(b, r, c)`).
-/
import proofs.«145471_j5531917877519_2_alg».proof.Proof.Gen.ReferenceIdeal.Read
import proofs.«145471_j5531917877519_2_alg».proof.Proof.Spec
import Idealize.ShloMosaic.PureOps.Ideal.Laws
import Idealize.ShloMosaic.Lib.ValueIdx

noncomputable section

namespace Cert.RefValue

open Cert.ReferenceIdeal Cert.ReferenceIdeal.Gen Cert.ReferenceIdeal.Read Idealize.ShloMosaic Idealize.ShloMosaic.ValueIdx
open Cert.Spec

/-- A host sum of a [512, R, C] array over its last two axes, at row `b`: the initial value plus the sum over every
    `(r, c)` of the array at `(b, r, c)`. -/
theorem hostReduceAdd_image {R C : ℕ} (h' : (⟨3, ![512, R, C]⟩ : Shape).ReducesTo [1, 2] ⟨1, ![512]⟩)
    (x : (⟨3, ![512, R, C]⟩ : Shape).Idx → EReal) (init : EReal) (b : Fin 512) :
    Ideal.hostReduceAdd h' x init (ix1 b) = init + ∑ r : Fin R, ∑ c : Fin C, x (ix3 b r c) := by
  unfold Ideal.hostReduceAdd
  refine congrArg (init + ·) ?_
  refine Eq.trans ?_ (Fintype.sum_prod_type' (fun (r : Fin R) (c : Fin C) => x (ix3 b r c)))
  have hdrop : ∀ i : (⟨3, ![512, R, C]⟩ : Shape).Idx, ((h'.drop i) 0).val = (i 0).val := fun i =>
    h'.drop_apply_val_of_eq i 0 0 Nat.zero_lt_one rfl
  refine Finset.sum_nbij' (fun i => ((i 1 : Fin R), (i 2 : Fin C))) (fun p => ix3 b p.1 p.2) ?_ ?_ ?_ ?_ ?_
  · intro i _; exact Finset.mem_univ _
  · intro p _
    refine Finset.mem_filter.2 ⟨Finset.mem_univ _, ?_⟩
    funext a
    match a with
    | ⟨0, _⟩ => exact Fin.ext (hdrop (ix3 b p.1 p.2))
  · intro i hi
    have hj := (Finset.mem_filter.1 hi).2
    have h0 : (i 0).val = b.val := by rw [← hdrop i, hj]
    funext a
    match a with
    | ⟨0, _⟩ => exact Fin.ext h0.symm
    | ⟨1, _⟩ => rfl
    | ⟨2, _⟩ => rfl
  · intro p _; rfl
  · intro i hi
    have hj := (Finset.mem_filter.1 hi).2
    have h0 : (i 0).val = b.val := by rw [← hdrop i, hj]
    refine congrArg x (funext fun a => ?_)
    match a with
    | ⟨0, _⟩ => exact Fin.ext h0
    | ⟨1, _⟩ => rfl
    | ⟨2, _⟩ => rfl

variable (x0 : (⟨S512x65536, .f32⟩ : BufTy).Contents (Elt Ideal))

/-- Pixel `(r, c)` of image `b` in the reshaped argument is the argument at `(b, r * 256 + c)`. -/
theorem pixel (b : Fin 512) (r c : Fin 256) :
    val_main_v0 (F := Ideal) x0 (ix3 b r c)
      = x0 (ix2 b ⟨r.val * 256 + c.val, by have := r.isLt; have := c.isLt; omega⟩) := by
  rw [val_main_v0_apply]
  refine congrArg x0 (funext fun a => Fin.ext ?_)
  have hb := b.isLt; have hr := r.isLt; have hc := c.isLt
  match a with
  | ⟨0, _⟩ => show ((b.val * 256 + r.val) * 256 + c.val) / 65536 = b.val; omega
  | ⟨1, _⟩ => show ((b.val * 256 + r.val) * 256 + c.val) % 65536 = r.val * 256 + c.val; omega

/-- The reference's vertical difference at pixel `(r, c)` of image `b`. -/
theorem vdiff (b : Fin 512) (r : Fin 255) (c : Fin 256) :
    val_main_v4 (F := Ideal) x0 (ix3 b r c)
      = absE (x0 (ix2 b ⟨r.val * 256 + c.val, by have := r.isLt; have := c.isLt; omega⟩)
          - x0 (ix2 b ⟨(1 + r.val) * 256 + c.val, by have := r.isLt; have := c.isLt; omega⟩)) := by
  have hr := r.isLt
  have e1 : idx_main_v1 (ix3 b r c) = ix3 b (⟨r.val, by omega⟩ : Fin 256) c :=
    funext fun a => by match a with | ⟨0, _⟩ => rfl | ⟨1, _⟩ => rfl | ⟨2, _⟩ => rfl
  have e2 : idx_main_v2 (ix3 b r c) = ix3 b (⟨1 + r.val, by omega⟩ : Fin 256) c :=
    funext fun a => by match a with | ⟨0, _⟩ => rfl | ⟨1, _⟩ => rfl | ⟨2, _⟩ => rfl
  rw [val_main_v4_apply, val_main_v3_apply, val_main_v1_apply, val_main_v2_apply, e1, e2, pixel, pixel]
  rfl

/-- The reference's horizontal difference at pixel `(r, c)` of image `b`. -/
theorem hdiff (b : Fin 512) (r : Fin 256) (c : Fin 255) :
    val_main_v8 (F := Ideal) x0 (ix3 b r c)
      = absE (x0 (ix2 b ⟨r.val * 256 + c.val, by have := r.isLt; have := c.isLt; omega⟩)
          - x0 (ix2 b ⟨r.val * 256 + (1 + c.val), by have := r.isLt; have := c.isLt; omega⟩)) := by
  have hc := c.isLt
  have e1 : idx_main_v5 (ix3 b r c) = ix3 b r (⟨c.val, by omega⟩ : Fin 256) :=
    funext fun a => by match a with | ⟨0, _⟩ => rfl | ⟨1, _⟩ => rfl | ⟨2, _⟩ => rfl
  have e2 : idx_main_v6 (ix3 b r c) = ix3 b r (⟨1 + c.val, by omega⟩ : Fin 256) :=
    funext fun a => by match a with | ⟨0, _⟩ => rfl | ⟨1, _⟩ => rfl | ⟨2, _⟩ => rfl
  rw [val_main_v8_apply, val_main_v7_apply, val_main_v5_apply, val_main_v6_apply, e1, e2, pixel, pixel]
  rfl

/-- The reference's sum of vertical differences, at row `b`. -/
theorem vsum_row (b : Fin 512) : val_main_v9 (F := Ideal) x0 (ix1 b) = vgrid (rowOf x0 b) := by
  unfold val_main_v9
  simp only [Host.reduceAdd, Ideal.hostReduceAdd_def]
  refine (hostReduceAdd_image _ _ _ b).trans ?_
  rw [val_main_cst_apply]
  show Ideal.ofBits .f32 0x00000000#32 + _ = _
  rw [Ideal.ofBits_zero_f32, zero_add]
  unfold vgrid rowOf
  exact Finset.sum_congr rfl fun r _ => Finset.sum_congr rfl fun c _ => vdiff x0 b r c

/-- The reference's sum of horizontal differences, at row `b`. -/
theorem hsum_row (b : Fin 512) : val_main_v10 (F := Ideal) x0 (ix1 b) = hgrid (rowOf x0 b) := by
  unfold val_main_v10
  simp only [Host.reduceAdd, Ideal.hostReduceAdd_def]
  refine (hostReduceAdd_image _ _ _ b).trans ?_
  rw [val_main_cst_0_apply]
  show Ideal.ofBits .f32 0x00000000#32 + _ = _
  rw [Ideal.ofBits_zero_f32, zero_add]
  unfold hgrid rowOf
  exact Finset.sum_congr rfl fun r _ => Finset.sum_congr rfl fun c _ => hdiff x0 b r c

/-- The reference's result is the row's sum less the weight times the two neighbour sums over the image. -/
theorem result_eq : val_main_v16 (F := Ideal) x0 = resultGrid (Ideal.ofBits .f32 0x3DCCCCCD#32) x0 := by
  funext i
  obtain ⟨b, q, rfl⟩ : ∃ (b : Fin 512) (q : Fin 1), i = ix2 b q := ⟨i 0, i 1, eq_ix2 i⟩
  have e16 : idx_main_v16 (ix2 b q) = ix1 b := funext fun a => by match a with | ⟨0, _⟩ => rfl
  have e12 : ∀ k, idx_main_v12 (ix1 b) k = ix2 b k := fun k =>
    funext fun a => by match a with | ⟨0, _⟩ => rfl | ⟨1, _⟩ => rfl
  rw [val_main_v16_apply, e16, val_main_v15_apply, val_main_v14_apply, val_main_v13_apply, val_main_cst_2_apply,
    val_main_v11_apply, val_main_v12_apply, vsum_row, hsum_row, val_main_cst_1_apply]
  simp only [e12]
  show (Ideal.ofBits .f32 0x00000000#32 + area (rowOf x0 b))
      - Ideal.ofBits .f32 0x3DCCCCCD#32 * (vgrid (rowOf x0 b) + hgrid (rowOf x0 b)) = _
  rw [Ideal.ofBits_zero_f32, zero_add]
  rfl

end Cert.RefValue

end
-- ==== Proof.lean ====
/-
  The certificate of the gradient-penalised area kernel against its reference.

  For every row `b` of the [512, 65536] argument — a 256 × 256 image stored row-major — both programs compute
  `sum of the row - κ * (V + H)`, `V` the sum of the absolute differences of vertically adjacent pixels, `H` that of
  horizontally adjacent pixels, `κ` the binary32 number nearest one tenth (the same word in both programs, so its value is
  never needed). The kernel sums over the flat row, pairing position `k` with `k + 256` and with `k + 1`, and removes the
  pairs that straddle two image rows by a mask of zeros and ones computed on the host; the reference sums over the image's
  two coordinates. On the extended reals the two are one function of the argument (`Proof/Spec.lean`): sums may be
  regrouped freely, a product with the mask's `0` is `0` and with its `1` is the other factor, for infinite terms too, so
  the precondition that the argument is finite is not used.

  `Proof/Mask.lean` reads the host's mask, `Proof/KernelRow.lean` one grid point's block at a row, `Proof/KernelValue.lean`
  the kernel's whole result array after its run, `Proof/RefValue.lean` the reference's result; here the five claims are
  assembled. The three frames are the generated frame runs (the reference's is its generated run with the result
  dropped), and the idealization rewrote nothing, so `preserves` is trivial.
-/
import proofs.«145471_j5531917877519_2_alg».proof.Defs
import proofs.«145471_j5531917877519_2_alg».proof.Proof.Gen.Kernel
import proofs.«145471_j5531917877519_2_alg».proof.Proof.Gen.Kernel.Skeleton
import proofs.«145471_j5531917877519_2_alg».proof.Proof.Gen.Kernel.Launch
import proofs.«145471_j5531917877519_2_alg».proof.Proof.Gen.Kernel.Points
import proofs.«145471_j5531917877519_2_alg».proof.Proof.Gen.Kernel.Frame
import proofs.«145471_j5531917877519_2_alg».proof.Proof.Gen.KernelIdeal
import proofs.«145471_j5531917877519_2_alg».proof.Proof.Gen.KernelIdeal.Skeleton
import proofs.«145471_j5531917877519_2_alg».proof.Proof.Gen.KernelIdeal.Launch
import proofs.«145471_j5531917877519_2_alg».proof.Proof.Gen.KernelIdeal.Points
import proofs.«145471_j5531917877519_2_alg».proof.Proof.Gen.KernelIdeal.Frame
import proofs.«145471_j5531917877519_2_alg».proof.Proof.Gen.ReferenceIdeal
import proofs.«145471_j5531917877519_2_alg».proof.Proof.Gen.Pre_finite_inputs
import proofs.«145471_j5531917877519_2_alg».proof.Proof.Gen.KernelIdeal.Value
import proofs.«145471_j5531917877519_2_alg».proof.Proof.Gen.ReferenceIdeal.Run
import proofs.«145471_j5531917877519_2_alg».proof.Proof.Gen.ReferenceIdeal.Read
import proofs.«145471_j5531917877519_2_alg».proof.Proof.KernelValue
import proofs.«145471_j5531917877519_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Spec.resultGrid κ` of the argument: the kernel's by `KernelValue.run`, the
    reference's by its generated run read as `RefValue.result_eq`, the arguments agreeing. -/
theorem algebraic : Cert.algebraic_KernelIdeal_ReferenceIdeal := by
  intro m ρ m' ρ' _ hagree
  refine ⟨fun c => Cert.Spec.resultGrid Cert.KernelRow.κ (m ((c.tc : Thread Cert.KernelIdeal.nD Cert.KernelIdeal.τ).loc Cert.KernelIdeal.main_arg0)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.RefValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
